-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Payload.lean ====
/-
  The kernel body's three stored values, read at one index of the [2048, 1024] output block, on the extended reals.
  * the reset value is the zero block;
  * the accumulation step adds to the carried block, at (p, q), the sum over the 512 positions k of the block's
    contraction axis of  a(p, k) · b(q, k)  — the product of the [2048, 512] block of the first operand with the
    transpose of the [1024, 512] block of the second; the change of float format in front of the product is the
    identity on the extended reals, and the product is accumulated into an all-zero block;
  * the last step adds the [1, 1024] bias row, broadcast down the rows: at (p, q) it adds the row's entry q.
-/
import proofs.«164836_j16844861735163_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx

/-- The reset value is zero everywhere. -/
theorem pay1_apply (j : S2048x1024.Idx) : k0_pay1 (F := Ideal) j = 0 :=
  Ideal.ofBits_zero_f32

/-! ### The operand indices of the block product: rows from the output index, columns from the contraction index -/

theorem lhs_row (i : S2048x1024.Idx) (q : dot_S2048x512_S1024x512_S2048x1024_1_1_0_0_n_n.contr.Idx) :
    (dot_S2048x512_S1024x512_S2048x1024_1_1_0_0_n_n.lhsIdx i q 0).val = (i 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs_col (i : S2048x1024.Idx) (q : dot_S2048x512_S1024x512_S2048x1024_1_1_0_0_n_n.contr.Idx) :
    (dot_S2048x512_S1024x512_S2048x1024_1_1_0_0_n_n.lhsIdx i q 1).val = (q ⟨0, by decide⟩).val :=
  dot_S2048x512_S1024x512_S2048x1024_1_1_0_0_n_n.lhsIdx_val_of_single rfl i q
theorem rhs_row (i : S2048x1024.Idx) (q : dot_S2048x512_S1024x512_S2048x1024_1_1_0_0_n_n.contr.Idx) :
    (dot_S2048x512_S1024x512_S2048x1024_1_1_0_0_n_n.rhsIdx i q 0).val = (i 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs_col (i : S2048x1024.Idx) (q : dot_S2048x512_S1024x512_S2048x1024_1_1_0_0_n_n.contr.Idx) :
    (dot_S2048x512_S1024x512_S2048x1024_1_1_0_0_n_n.rhsIdx i q 1).val = (q ⟨0, by decide⟩).val :=
  dot_S2048x512_S1024x512_S2048x1024_1_1_0_0_n_n.rhsIdx_val_of_single rfl i q

/-- The block product into the zero block, at (p, q): the sum over k of a(p, k) · b(q, k). -/
theorem blockProduct_apply (a : FVec Ideal S2048x512 .bf16) (b : FVec Ideal S1024x512 .bf16) (p : Fin 2048) (q : Fin 1024) :
    matmul dot_S2048x512_S1024x512_S2048x1024_1_1_0_0_n_n none a b (constant S2048x1024 .f32 0x00000000#32) (ix2 p q)
      = ∑ k : Fin 512, a (ix2 p k) * b (ix2 q k) := by
  simp only [matmul]
  rw [Ideal.matmul_constant_zero_apply, ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun x => Fin.ext (by
    match x with
    | ⟨0, _⟩ => exact lhs_row _ _
    | ⟨1, _⟩ => exact (lhs_col _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun x => Fin.ext (by
    match x with
    | ⟨0, _⟩ => exact rhs_row _ _
    | ⟨1, _⟩ => exact (rhs_col _ _).trans hk)
  rw [el, er]

/-- The accumulation step at (p, q): the carried value plus the block product there. -/
theorem pay2_apply (x0 : Vec Ideal S2048x512 .f32) (x1 : Vec Ideal S1024x512 .f32) (acc : Vec Ideal S2048x1024 .f32)
    (p : Fin 2048) (q : Fin 1024) :
    k0_pay2 x0 x1 acc (ix2 p q) = acc (ix2 p q) + ∑ k : Fin 512, x0 (ix2 p k) * x1 (ix2 q k) := by
  unfold k0_pay2
  rw [addf_apply, shapeCast_self, blockProduct_apply]
  rfl

/-- The bias step at (p, q): the carried value plus the bias row's entry q. -/
theorem pay3_apply (v : Vec Ideal S2048x1024 .f32) (b : Vec Ideal S1x1024 .f32) (p : Fin 2048) (q : Fin 1024) :
    k0_pay3 v b (ix2 p q) = v (ix2 p q) + b (ix2 (0 : Fin 1) q) := by
  unfold k0_pay3
  rw [addf_apply, shapeCast_self, shapeCast_self]
  refine congrArg (v (ix2 p q) + ·) ?_
  exact broadcastTo_apply b broadcasts_S1x1024_S2048x1024 (ix2 p q) (ix2 (0 : Fin 1) q) (fun x => match x with
    | ⟨0, _⟩ => by show (0 : ℕ) = if (1 : Nat) = 1 then 0 else _; rw [if_pos rfl]
    | ⟨1, _⟩ => by show q.val = if (1024 : Nat) = 1 then 0 else q.val; rw [if_neg (by decide)])

end Cert.KernelIdeal.Payload

end
-- ==== Proof.LibSumBlocks.lean ====
/-
  A sum of `J · n` consecutive terms cut into `n` consecutive blocks of `J` terms each: adding block by block
  gives the same total as adding all terms at once. Only commutativity and associativity of `+` are used, so
  the statement holds in every commutative additive monoid — in particular on the extended reals, where a sum
  may contain infinities and no cancellation law is available.
-/
import Mathlib.Algebra.BigOperators.Fin
import Mathlib.Algebra.BigOperators.Intervals

namespace Cert.LibSumBlocks

/-- Block `s` holds the terms `J·s, …, J·s + J - 1`; the first `n` blocks together are the first `J·n` terms. -/
theorem sum_blocks_range {β : Type*} [AddCommMonoid β] (g : ℕ → β) (J : ℕ) :
    ∀ n : ℕ, ∑ s ∈ Finset.range n, ∑ j ∈ Finset.range J, g (J * s + j) = ∑ k ∈ Finset.range (J * n), g k
  | 0 => by simp
  | n + 1 => by
    rw [Finset.sum_range_succ, sum_blocks_range g J n, Nat.mul_succ, Finset.sum_range_add]

/-- The same with the inner sums and the total indexed by `Fin`. -/
theorem sum_blocks_fin {β : Type*} [AddCommMonoid β] (g : ℕ → β) (J n : ℕ) :
    ∑ s ∈ Finset.range n, ∑ j : Fin J, g (J * s + j.val) = ∑ k : Fin (J * n), g k.val := by
  rw [Fin.sum_univ_eq_sum_range (fun k => g k) (J * n), ← sum_blocks_range g J n]
  refine Finset.sum_congr rfl fun s _ => ?_
  exact Fin.sum_univ_eq_sum_range (fun j => g (J * s + j)) J

end Cert.LibSumBlocks
-- ==== Proof.Spec.lean ====
/-
  The function both programs compute:  out(r, o) = ∑ₖ x(r, k) · w(o, k) + bias(o)  over the 4096 columns k, on the
  extended reals — the product of x with the transpose of w, plus the bias along the rows.

  The kernel walks the 4096 columns in eight consecutive blocks of 512 and names matrix entries by natural numbers
  (block offset plus position in the block); `at2` / `at1` read a matrix or a vector at natural-number coordinates
  (zero outside the array, a value that is never used), and `row_product_blocks` says that the eight partial sums of
  a row product add up to the whole row product. The regrouping uses only that `+` on the extended reals is
  commutative and associative, so it needs no finiteness of the entries.
-/
import Idealize.ShloMosaic.Lib.ValueIdx
import proofs.«164836_j16844861735163_2_alg».proof.Proof.LibSumBlocks

noncomputable section

namespace Cert.MatmulBias

open Idealize.ShloMosaic Idealize.ShloMosaic.ValueIdx

/-- Entry (a, b) of a matrix, the coordinates given as natural numbers. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

theorem at2_val {n0 n1 : ℕ} (A : (⟨2, ![n0, n1]⟩ : Shape).Idx → EReal) (a : Fin n0) (b : Fin n1) :
    at2 A a.val b.val = A (ix2 a b) := by
  unfold at2
  rw [dif_pos ⟨a.isLt, b.isLt⟩]

/-- Entry a of a vector, the coordinate given as a natural number. -/
def at1 {n : ℕ} (B : (⟨1, ![n]⟩ : Shape).Idx → EReal) (a : ℕ) : EReal :=
  if h : a < n then B (ix1 ⟨a, h⟩) else 0

theorem at1_val {n : ℕ} (B : (⟨1, ![n]⟩ : Shape).Idx → EReal) (a : Fin n) : at1 B a.val = B (ix1 a) := by
  unfold at1
  rw [dif_pos a.isLt]

/-- x · wᵀ + bias, entry by entry. -/
def linear (X W : (⟨2, ![4096, 4096]⟩ : Shape).Idx → EReal) (B : (⟨1, ![4096]⟩ : Shape).Idx → EReal) :
    (⟨2, ![4096, 4096]⟩ : Shape).Idx → EReal :=
  fun i => (∑ k : Fin 4096, X (ix2 (i 0) k) * W (ix2 (i 1) k)) + B (ix1 (i 1))

/-- The product of row a of X with row b of W, summed in eight blocks of 512 columns, is the whole row product. -/
theorem row_product_blocks (X W : (⟨2, ![4096, 4096]⟩ : Shape).Idx → EReal) (a b : Fin 4096) :
    ∑ s ∈ Finset.range 8, ∑ k : Fin 512, at2 X a.val (512 * s + k.val) * at2 W b.val (512 * s + k.val)
      = ∑ k : Fin 4096, X (ix2 a k) * W (ix2 b k) := by
  rw [Cert.LibSumBlocks.sum_blocks_fin (fun k => at2 X a.val k * at2 W b.val k) 512 8]
  show ∑ k : Fin 4096, at2 X a.val k.val * at2 W b.val k.val = _
  exact Finset.sum_congr rfl fun k _ => by rw [at2_val, at2_val]

end Cert.MatmulBias

end
-- ==== Proof.Blocks.lean ====
/-
  The three input blocks the body finds at grid point t, read off the argument arrays. The grid is 2 × 4 × 8, walked
  in row-major order, so point t has coordinates (t / 32, t / 8 mod 4, t mod 8) = (row block, column block, step):
  * the first operand's [2048, 512] block is rows 2048·(t / 32) … and columns 512·(t mod 8) … of x;
  * the second operand's [1024, 512] block is rows 1024·(t / 8 mod 4) … and columns 512·(t mod 8) … of w;
  * the bias block is entries 1024·(t / 8 mod 4) … of the bias vector, which the program reshaped to one row
    before the kernel was launched (the reshape keeps the entries in order).
-/
import proofs.«164836_j16844861735163_2_alg».proof.Proof.Gen.KernelIdeal.Frame.Runs
import proofs.«164836_j16844861735163_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.MatmulBias

variable (m : (ℓ : Loc nD τ sig) → Buf (Elt Ideal) ℓ)

/-! ### The block indices of the three input windows at point t, decided over the 64 points -/

theorem index_x : ∀ t : Fin cfg0.N, win0_0.index t (0 : Fin 2) = t.val / 32 ∧ win0_0.index t (1 : Fin 2) = t.val % 8 :=
  (by decide +kernel : ∀ t : Fin grid0.N, _)

theorem index_w : ∀ t : Fin cfg0.N, win0_1.index t (0 : Fin 2) = t.val / 8 % 4 ∧ win0_1.index t (1 : Fin 2) = t.val % 8 :=
  (by decide +kernel : ∀ t : Fin grid0.N, _)

theorem index_bias : ∀ t : Fin cfg0.N, win0_2.index t (0 : Fin 2) = 0 ∧ win0_2.index t (1 : Fin 2) = t.val / 8 % 4 :=
  (by decide +kernel : ∀ t : Fin grid0.N, _)

/-! ### The blocks -/

/-- Entry (y₀, y₁) of the first operand's block at point t is x(2048·(t / 32) + y₀, 512·(t mod 8) + y₁). -/
theorem block_x (c : Dev nD) (t : Fin cfg0.N) (y : S2048x512.Idx) :
    iblk m c 0 t y
      = at2 (m ((c : Thread nD τ).loc main_arg0)) (2048 * (t.val / 32) + (y 0).val) (512 * (t.val % 8) + (y 1).val) := by
  obtain ⟨e0, e1⟩ := index_x t
  have hN : t.val < 64 := lt_of_lt_of_eq t.isLt (show cfg0.N = 64 from N_0)
  have hy0 : (y 0).val < 2048 := (y 0).isLt
  have hy1 : (y 1).val < 512 := (y 1).isLt
  have hb0 : (((cfg0.win 0).blk t).view.emb y 0).val = win0_0.index t (0 : Fin 2) * 2048 + 1 * (y 0).val := rfl
  have hb1 : (((cfg0.win 0).blk t).view.emb y 1).val = win0_0.index t (1 : Fin 2) * 512 + 1 * (y 1).val := rfl
  show V m c main_arg0 (((cfg0.win 0).blk t).view.emb y) = _
  rw [V_main_arg0]
  unfold at2
  rw [dif_pos ⟨by omega, by omega⟩]
  refine congrArg _ (funext fun a => Fin.ext ?_)
  match a with
  | ⟨0, _⟩ => show (((cfg0.win 0).blk t).view.emb y 0).val = 2048 * (t.val / 32) + (y 0).val; rw [hb0, e0]; omega
  | ⟨1, _⟩ => show (((cfg0.win 0).blk t).view.emb y 1).val = 512 * (t.val % 8) + (y 1).val; rw [hb1, e1]; omega

/-- Entry (y₀, y₁) of the second operand's block at point t is w(1024·(t / 8 mod 4) + y₀, 512·(t mod 8) + y₁). -/
theorem block_w (c : Dev nD) (t : Fin cfg0.N) (y : S1024x512.Idx) :
    iblk m c 1 t y
      = at2 (m ((c : Thread nD τ).loc main_arg1)) (1024 * (t.val / 8 % 4) + (y 0).val) (512 * (t.val % 8) + (y 1).val) := by
  obtain ⟨e0, e1⟩ := index_w t
  have hN : t.val < 64 := lt_of_lt_of_eq t.isLt (show cfg0.N = 64 from N_0)
  have hy0 : (y 0).val < 1024 := (y 0).isLt
  have hy1 : (y 1).val < 512 := (y 1).isLt
  have hb0 : (((cfg0.win 1).blk t).view.emb y 0).val = win0_1.index t (0 : Fin 2) * 1024 + 1 * (y 0).val := rfl
  have hb1 : (((cfg0.win 1).blk t).view.emb y 1).val = win0_1.index t (1 : Fin 2) * 512 + 1 * (y 1).val := rfl
  show V m c main_arg1 (((cfg0.win 1).blk t).view.emb y) = _
  rw [V_main_arg1]
  unfold at2
  rw [dif_pos ⟨by omega, by omega⟩]
  refine congrArg _ (funext fun a => Fin.ext ?_)
  match a with
  | ⟨0, _⟩ => show (((cfg0.win 1).blk t).view.emb y 0).val = 1024 * (t.val / 8 % 4) + (y 0).val; rw [hb0, e0]; omega
  | ⟨1, _⟩ => show (((cfg0.win 1).blk t).view.emb y 1).val = 512 * (t.val % 8) + (y 1).val; rw [hb1, e1]; omega

/-- The one-row array the kernel's third window stages is the bias vector reshaped. -/
theorem staged_bias (c : Dev nD) :
    (V m c main_v0 : S1x4096.Idx → EReal)
      = shapeCast S1x4096 (m ((c : Thread nD τ).loc main_arg2)) shapeCasts_S4096_S1x4096 := by
  dsimp only [V, hostOps0]
  after_results
  rfl

/-- Entry (0, y₁) of the bias block at point t is bias(1024·(t / 8 mod 4) + y₁). -/
theorem block_bias (c : Dev nD) (t : Fin cfg0.N) (y : S1x1024.Idx) :
    iblk m c 2 t y = at1 (m ((c : Thread nD τ).loc main_arg2)) (1024 * (t.val / 8 % 4) + (y 1).val) := by
  obtain ⟨e0, e1⟩ := index_bias t
  have hN : t.val < 64 := lt_of_lt_of_eq t.isLt (show cfg0.N = 64 from N_0)
  have hy0 : (y 0).val < 1 := (y 0).isLt
  have hy1 : (y 1).val < 1024 := (y 1).isLt
  have hb0 : (((cfg0.win 2).blk t).view.emb y 0).val = win0_2.index t (0 : Fin 2) * 1 + 1 * (y 0).val := rfl
  have hb1 : (((cfg0.win 2).blk t).view.emb y 1).val = win0_2.index t (1 : Fin 2) * 1024 + 1 * (y 1).val := rfl
  show V m c main_v0 (((cfg0.win 2).blk t).view.emb y) = _
  rw [staged_bias]
  unfold at1
  rw [dif_pos (by omega)]
  refine shapeCast_apply _ shapeCasts_S4096_S1x4096 _ _ ?_
  rw [Shape.rowMajor_val_one, Shape.rowMajor_val_two]
  show 1024 * (t.val / 8 % 4) + (y 1).val = (((cfg0.win 2).blk t).view.emb y 0).val * 4096 + (((cfg0.win 2).blk t).view.emb y 1).val
  rw [hb0, hb1, e0, e1]
  omega

end Cert.KernelIdeal.Blocks

end
-- ==== Proof.Fold.lean ====
/-
  What the output block's staging buffer holds at the end of a run of eight consecutive grid points 8·r, …, 8·r + 7
  (one row block, one column block, the eight steps along the contraction axis), at entry i of the block.

  Point n of the run contributes the ADDEND  ∑ₖ x(2048·(n / 32) + i₀, 512·(n mod 8) + k) · w(1024·(n / 8 mod 4) + i₁, 512·(n mod 8) + k)
  over the 512 columns k of its step. The first point writes zero plus its addend, each later point adds its
  addend to what the point before left, and the last point also adds the bias entry of column i₁. So the buffer
  ends at the sum of the eight addends plus the bias entry (the leading zero dropped: 0 + a = a on the extended reals).
-/
import proofs.«164836_j16844861735163_2_alg».proof.Proof.Gen.KernelIdeal.Value
import proofs.«164836_j16844861735163_2_alg».proof.Proof.Payload
import proofs.«164836_j16844861735163_2_alg».proof.Proof.Blocks

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx Cert.MatmulBias

variable (m : (ℓ : Loc nD τ sig) → Buf (Elt Ideal) ℓ)

/-- Point n's addend at entry i of the output block. -/
def addend (c : Dev nD) (n : ℕ) (i : S2048x1024.Idx) : EReal :=
  ∑ k : Fin 512, at2 (m ((c : Thread nD τ).loc main_arg0)) (2048 * (n / 32) + (i 0).val) (512 * (n % 8) + k.val)
    * at2 (m ((c : Thread nD τ).loc main_arg1)) (1024 * (n / 8 % 4) + (i 1).val) (512 * (n % 8) + k.val)

/-- The accumulation step over point n's blocks adds point n's addend. -/
theorem accumulate_apply (c : Dev nD) (n : ℕ) (h : n < cfg0.N) (acc : Vec Ideal S2048x1024 .f32) (i : S2048x1024.Idx) :
    k0_pay2 (iblk m c 0 ⟨n, h⟩) (iblk m c 1 ⟨n, h⟩) acc i = acc i + addend m c n i := by
  obtain ⟨p, q, rfl⟩ : ∃ (p : Fin 2048) (q : Fin 1024), i = ix2 p q := ⟨i 0, i 1, eq_ix2 i⟩
  refine (Payload.pay2_apply (iblk m c 0 ⟨n, h⟩) (iblk m c 1 ⟨n, h⟩) acc p q).trans ?_
  refine congrArg (acc (ix2 p q) + ·) ?_
  unfold addend
  refine Finset.sum_congr rfl fun k _ => ?_
  exact congrArg₂ (· * ·) (Blocks.block_x m c ⟨n, h⟩ (ix2 p k)) (Blocks.block_w m c ⟨n, h⟩ (ix2 q k))

/-- The run's first point leaves zero plus its addend. -/
theorem reset_apply (c : Dev nD) (b : ℕ) (h : b < cfg0.N) (i : S2048x1024.Idx) :
    reset3 m c b h i = (fun _ => (0 : EReal)) i + addend m c b i := by
  unfold reset3
  refine (accumulate_apply m c b h _ i).trans ?_
  exact congrArg (· + addend m c b i) (Payload.pay1_apply i)

/-- A point strictly inside the run (steps 1 … 6) adds its addend. -/
theorem middle_apply (c : Dev nD) (n : ℕ) (h : n < cfg0.N) (hn : ¬n % 8 = 0 ∧ ¬n % 8 = 7) (acc : Vec Ideal S2048x1024 .f32)
    (i : S2048x1024.Idx) : step3 m c n h acc i = acc i + addend m c n i := by
  unfold step3
  rw [if_pos hn]
  exact accumulate_apply m c n h acc i

/-- The run's last point (step 7) adds its addend and then the bias entry of the column. -/
theorem last_apply (c : Dev nD) (n : ℕ) (h : n < cfg0.N) (hn : n % 8 = 7) (acc : Vec Ideal S2048x1024 .f32)
    (i : S2048x1024.Idx) :
    step3 m c n h acc i
      = (acc i + addend m c n i) + at1 (m ((c : Thread nD τ).loc main_arg2)) (1024 * (n / 8 % 4) + (i 1).val) := by
  unfold step3
  rw [if_neg (by omega), if_pos ⟨by omega, hn⟩]
  obtain ⟨p, q, rfl⟩ : ∃ (p : Fin 2048) (q : Fin 1024), i = ix2 p q := ⟨i 0, i 1, eq_ix2 i⟩
  refine (Payload.pay3_apply _ (iblk m c 2 ⟨n, h⟩) p q).trans ?_
  exact congrArg₂ (· + ·) (accumulate_apply m c n h acc (ix2 p q)) (Blocks.block_bias m c ⟨n, h⟩ (ix2 (0 : Fin 1) q))

/-- After the first seven points of run r: the sum of their seven addends. -/
theorem fold_six (c : Dev nD) (r : ℕ) (h : 8 * r + 6 < cfg0.N) (i : S2048x1024.Idx) :
    Pipeline.accAt (reset3 m c) (step3 m c) (8 * r) 6 h i = 0 + ∑ s ∈ Finset.range 7, addend m c (8 * r + s) i :=
  Pipeline.accAt_add_apply (reset3 m c) (step3 m c) (fun _ => (0 : EReal)) (addend m c) (8 * r) 6
    (fun hb j => reset_apply m c (8 * r) hb j)
    (fun n hn acc j h1 h2 => middle_apply m c n hn ⟨by omega, by omega⟩ acc j) 6 le_rfl h i

/-- After the whole run r: the sum of the eight addends plus the bias entry of the column. -/
theorem fold_apply (c : Dev nD) (r : ℕ) (h : 8 * r + 7 < cfg0.N) (i : S2048x1024.Idx) :
    Pipeline.accAt (reset3 m c) (step3 m c) (8 * r) 7 h i
      = (∑ s ∈ Finset.range 8, addend m c (8 * r + s) i)
        + at1 (m ((c : Thread nD τ).loc main_arg2)) (1024 * ((8 * r + 7) / 8 % 4) + (i 1).val) := by
  rw [Pipeline.accAt_succ]
  refine (last_apply m c (8 * r + (6 + 1)) h (by omega) _ i).trans ?_
  show (Pipeline.accAt (reset3 m c) (step3 m c) (8 * r) 6 _ i + addend m c (8 * r + 7) i) + _ = _
  rw [fold_six m c r _ i, zero_add]
  exact congrArg (· + _) (Finset.sum_range_succ (fun s => addend m c (8 * r + s) i) 7).symm

end Cert.KernelIdeal.Fold

end
-- ==== Proof.KernelValue.lean ====
/-
  The kernel's output array, entry by entry, is  ∑ₖ x(i₀, k) · w(i₁, k) + bias(i₁)  over all 4096 columns k.

  Entry i = (i₀, i₁) lies in the output block of row block i₀ / 2048 and column block i₁ / 1024, at place
  (i₀ mod 2048, i₁ mod 1024); that block is written back at the end of run r = 4·(i₀ / 2048) + i₁ / 1024, whose eight
  points 8·r + s have coordinates (i₀ / 2048, i₁ / 1024, s). So the run's eight addends at that place are the partial
  products of row i₀ of x with row i₁ of w over the column blocks 512·s …, and they add up to the whole row product;
  the bias entry is the one of column i₁.
-/
import proofs.«164836_j16844861735163_2_alg».proof.Proof.Fold

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.ValueIdx Cert.MatmulBias Cert.KernelIdeal.Fold

variable (m : (ℓ : Loc nD τ sig) → Buf (Elt Ideal) ℓ)

theorem G3_apply (c : Dev nD) (i : S4096x4096.Idx) :
    G3 m c i = linear (m ((c : Thread nD τ).loc main_arg0)) (m ((c : Thread nD τ).loc main_arg1))
      (m ((c : Thread nD τ).loc main_arg2)) i := by
  have h0 : (i 0).val < 4096 := (i 0).isLt
  have h1 : (i 1).val < 4096 := (i 1).isLt
  have hN : cfg0.N = 64 := N_0
  have hrun : run3Of i = 4 * ((i 0).val / 2048) + (i 1).val / 1024 := by
    show 4 * ((i 0).val / 2048 - 0) + 1 * ((i 1).val / 1024 - 0) = _
    omega
  have hl0 : (loc3Of i 0).val = (i 0).val % 2048 := rfl
  have hl1 : (loc3Of i 1).val = (i 1).val % 1024 := rfl
  have hr : 8 * run3Of i + 7 < cfg0.N := by rw [hN, hrun]; omega
  unfold G3
  rw [dif_pos hr]
  refine (fold_apply m c (run3Of i) hr (loc3Of i)).trans ?_
  unfold linear
  refine congrArg₂ (· + ·) ?_ ?_
  · refine Eq.trans ?_ (row_product_blocks _ _ (i 0) (i 1))
    refine Finset.sum_congr rfl fun s hs => ?_
    have hs' : s < 8 := Finset.mem_range.mp hs
    unfold addend
    refine Finset.sum_congr rfl fun k _ => ?_
    have e1 : 2048 * ((8 * run3Of i + s) / 32) + (loc3Of i 0).val = (i 0).val := by rw [hrun, hl0]; omega
    have e2 : 1024 * ((8 * run3Of i + s) / 8 % 4) + (loc3Of i 1).val = (i 1).val := by rw [hrun, hl1]; omega
    have e3 : (8 * run3Of i + s) % 8 = s := by omega
    rw [e1, e2, e3]
  · have e : 1024 * ((8 * run3Of i + 7) / 8 % 4) + (loc3Of i 1).val = (i 1).val := by rw [hrun, hl1]; omega
    rw [e]
    exact at1_val _ (i 1)

end Cert.KernelIdeal.KernelValue

end
-- ==== Proof.RefSide.lean ====
/-
  The reference, entry by entry: the host's product of x with w contracted over the second axis of both, plus the
  bias broadcast first to one row and then down all rows, is  ∑ₖ x(i₀, k) · w(i₁, k) + bias(i₁).
-/
import proofs.«164836_j16844861735163_2_alg».proof.Proof.Gen.ReferenceIdeal.Read
import proofs.«164836_j16844861735163_2_alg».proof.Proof.Spec

noncomputable section

namespace Cert.ReferenceIdeal.RefValue

open Cert.ReferenceIdeal Cert.ReferenceIdeal.Gen Cert.ReferenceIdeal.Read Idealize.ShloMosaic
open Idealize.ShloMosaic.ValueIdx Cert.MatmulBias

theorem result_eq (x0 x1 : (⟨S4096x4096, .f32⟩ : BufTy).Contents (Elt Ideal)) (x2 : (⟨S4096, .f32⟩ : BufTy).Contents (Elt Ideal)) :
    val_main_v3 (F := Ideal) x0 x1 x2 = linear x0 x1 x2 := by
  funext i
  have el : ∀ k : Fin 4096, lidx_main_v0 i k = ix2 (i 0) k := fun k => funext fun a => Fin.ext (by
    match a with
    | ⟨0, _⟩ => rfl
    | ⟨1, _⟩ => rfl)
  have er : ∀ k : Fin 4096, ridx_main_v0 i k = ix2 (i 1) k := fun k => funext fun a => Fin.ext (by
    match a with
    | ⟨0, _⟩ => rfl
    | ⟨1, _⟩ => rfl)
  have eb : idx_main_v1 (idx_main_v2 i) = ix1 (i 1) := funext fun a => Fin.ext (by
    match a with
    | ⟨0, _⟩ => rfl)
  rw [val_main_v3_apply, val_main_v0_apply, val_main_v2_apply, val_main_v1_apply, eb]
  simp only [el, er]
  rfl

end Cert.ReferenceIdeal.RefValue

end
-- ==== Proof.lean ====
/-
  The kernel computes  x · wᵀ + bias  for x, w : [4096, 4096] and bias : [4096]: a 2 × 4 grid of [2048, 1024] output
  blocks, each accumulated in place over eight steps of 512 columns of the contraction axis (zero at the first step,
  the block product of the step's two operand blocks added at every step, the bias row added at the last one). The
  reference is one product of x with w contracted over the second axis of both, plus the bias broadcast down the
  rows.

  On the extended reals both are, at entry (i₀, i₁),  ∑ₖ x(i₀, k) · w(i₁, k) + bias(i₁)  over the 4096 columns k
  (`Cert.MatmulBias.linear`): the kernel's eight partial sums regroup the one sum (`row_product_blocks`), which only
  uses that addition is commutative and associative, so the precondition (finite inputs) is never opened; the change of
  float format in front of the kernel's product is the identity there. Idealizing the kernel rewrote nothing, so the
  claim that the idealized kernel is the kernel's idealization is trivial.

  Modules: LibSumBlocks (a sum cut into consecutive blocks), Spec (the function and the regrouping), Payload (the body's
  three stored values at an index), Blocks (the input blocks read off the arrays), Fold (a run of eight points at an
  index), KernelValue (the kernel's output array is `linear`), RefSide (the reference's result is `linear`).
-/
import proofs.«164836_j16844861735163_2_alg».proof.Defs
import proofs.«164836_j16844861735163_2_alg».proof.Proof.Gen.Kernel.Frame
import proofs.«164836_j16844861735163_2_alg».proof.Proof.Gen.KernelIdeal.Value
import proofs.«164836_j16844861735163_2_alg».proof.Proof.Gen.Pre_finite_inputs
import proofs.«164836_j16844861735163_2_alg».proof.Proof.Gen.ReferenceIdeal.Run
import proofs.«164836_j16844861735163_2_alg».proof.Proof.KernelValue
import proofs.«164836_j16844861735163_2_alg».proof.Proof.RefSide
import Idealize.ShloMosaic.Adequacy
import Idealize.ShloMosaic.Init

noncomputable section

namespace Cert.Proof

open Idealize.ShloMosaic Idealize.SL.Sem

/-- The idealized kernel's frame: its value run, with the result forgotten. -/
theorem frame_KernelIdeal : frame_KernelIdeal := fun m ρ _ =>
  (θ_run Cert.KernelIdeal.defs _ _).mono (fun _ h c => (h c).2) (Cert.KernelIdeal.Value.run (F := Ideal) m ρ)

/-- The reference's frame: its run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- Both runs end, and the two result arrays are the same function `linear` of arguments that agree. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v3_eq, Cert.ReferenceIdeal.RefValue.result_eq]
  exact (funext fun i => Cert.KernelIdeal.KernelValue.G3_apply m c i).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
